-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S2x16000000 : Shape := ⟨2, ![2, 16000000]⟩
abbrev S16000000x2 : Shape := ⟨2, ![16000000, 2]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S16000000x2 : S_.BroadcastsInDim S16000000x2 (![] : Fin 0 → Fin S16000000x2.rank)
  reducesTo_S16000000x2_S_d0_1 : S16000000x2.ReducesTo [0, 1] S_

variable [Facts]

def fn {F : FTy → Type} [FloatOps F] (main_arg0 : FVec F S1000000x4 .f32) (main_arg1 : IVec S2x16000000 32) (main_arg2 : FVec F S16000000x2 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S16000000x2 .f32 := Host.absf main_arg2
  let main_cst_0 : FVec F S_ .f32 := constant S_ .f32 0x7F800000#32
  let main_v5 : FVec F S16000000x2 .f32 := broadcastInDim S16000000x2 ![] bcast_S_S16000000x2 main_cst_0
  let main_v6 : IVec S16000000x2 1 := cmpf .olt main_v4 main_v5
  let main_c_1 : IVec S_ 1 := constantI S_ 1 1#1
  let main_v7 : IVec S_ 1 := (fun x v => Host.reduce IntOp.andi x v reducesTo_S16000000x2_S_d0_1 h_S_) main_v6 main_c_1
  let main_v8 : IVec S_ 1 := andi main_v3 main_v7
  main_v8
-- ==== Kernel.lean ====
abbrev S1000000x4 : Shape := ⟨2, ![1000000, 4]⟩
abbrev S2x16000000 : Shape := ⟨2, ![2, 16000000]⟩
abbrev S16000000x2 : Shape := ⟨2, ![16000000, 2]⟩
abbrev S1000000x1 : Shape := ⟨2, ![1000000, 1]⟩
abbrev S1000000 : Shape := ⟨1, ![1000000]⟩
abbrev S16000000x1 : Shape := ⟨2, ![16000000, 1]⟩
abbrev S16000000 : Shape := ⟨1, ![16000000]⟩
abbrev S1x16000000 : Shape := ⟨2, ![1, 16000000]⟩
abbrev S_ : Shape := ⟨0, ![]⟩
abbrev S125000x128 : Shape := ⟨2, ![125000, 128]⟩
abbrev S5000x128 : Shape := ⟨2, ![5000, 128]⟩

abbrev nBuf : Space → Nat
  | .hbm => 38
  | .vmem => 8
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x2, .f32⟩
  | .hbm, ⟨3, _⟩ => ⟨S1000000x1, .f32⟩
  | .hbm, ⟨4, _⟩ => ⟨S1000000, .f32⟩
  | .hbm, ⟨5, _⟩ => ⟨S16000000x1, .f32⟩
  | .hbm, ⟨6, _⟩ => ⟨S16000000, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S125000x128, .f32⟩
  | .hbm, ⟨30, _⟩ => ⟨S125000x128, .f32⟩
  | .hbm, ⟨31, _⟩ => ⟨S125000x128, .f32⟩
  | .hbm, ⟨32, _⟩ => ⟨S125000x128, .f32⟩
  | .hbm, ⟨33, _⟩ => ⟨S16000000, .f32⟩
  | .hbm, ⟨34, _⟩ => ⟨S_, .f32⟩
  | .hbm, ⟨35, _⟩ => ⟨S1000000, .f32⟩
  | .hbm, ⟨36, _⟩ => ⟨S16000000x1, .i32⟩
  | .hbm, ⟨37, _⟩ => ⟨S1000000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1000000x4_S1000000x1_0_0 : S1000000x4.Slices ![0, 0] S1000000x1
  shapeCasts_S1000000x1_S1000000 : S1000000x1.ShapeCasts S1000000
  slices_S16000000x2_S16000000x1_0_0 : S16000000x2.Slices ![0, 0] S16000000x1
  shapeCasts_S16000000x1_S16000000 : S16000000x1.ShapeCasts S16000000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  bcast_S_S1000000 : S_.BroadcastsInDim S1000000 (![] : Fin 0 → Fin S1000000.rank)
  gather_S1000000_S16000000x1_S16000000_n_0_n_n_0_1_1_wf : GatherDims.WF S1000000 S16000000x1 S16000000 [] [0] [] [0] [] 1 ![1]
  scatter_S1000000_S16000000x1_S16000000_n_0_0_1_wf : ScatterDims.WF S1000000 S16000000x1 S16000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S2x16000000 : Shape := ⟨2, ![2, 16000000]⟩
abbrev S16000000x2 : Shape := ⟨2, ![16000000, 2]⟩
abbrev S1000000x1 : Shape := ⟨2, ![1000000, 1]⟩
abbrev S1000000 : Shape := ⟨1, ![1000000]⟩
abbrev S16000000x1 : Shape := ⟨2, ![16000000, 1]⟩
abbrev S16000000 : Shape := ⟨1, ![16000000]⟩
abbrev S1x16000000 : Shape := ⟨2, ![1, 16000000]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x2, .f32⟩
  | .hbm, ⟨3, _⟩ => ⟨S1000000x1, .f32⟩
  | .hbm, ⟨4, _⟩ => ⟨S1000000, .f32⟩
  | .hbm, ⟨5, _⟩ => ⟨S16000000x1, .f32⟩
  | .hbm, ⟨6, _⟩ => ⟨S16000000, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S16000000, .f32⟩
  | .hbm, ⟨30, _⟩ => ⟨S_, .f32⟩
  | .hbm, ⟨31, _⟩ => ⟨S16000000, .f32⟩
  | .hbm, ⟨32, _⟩ => ⟨S16000000, .i1⟩
  | .hbm, ⟨33, _⟩ => ⟨S_, .f32⟩
  | .hbm, ⟨34, _⟩ => ⟨S16000000, .f32⟩
  | .hbm, ⟨35, _⟩ => ⟨S16000000, .f32⟩
  | .hbm, ⟨36, _⟩ => ⟨S16000000, .f32⟩
  | .hbm, ⟨37, _⟩ => ⟨S16000000, .f32⟩
  | .hbm, ⟨38, _⟩ => ⟨S_, .f32⟩
  | .hbm, ⟨39, _⟩ => ⟨S16000000, .f32⟩
  | .hbm, ⟨40, _⟩ => ⟨S16000000, .f32⟩
  | .hbm, ⟨41, _⟩ => ⟨S_, .f32⟩
  | .hbm, ⟨42, _⟩ => ⟨S1000000, .f32⟩
  | .hbm, ⟨43, _⟩ => ⟨S16000000x1, .i32⟩
  | .hbm, ⟨44, _⟩ => ⟨S1000000, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_call1_v0 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S1000000x4_S1000000x1_0_0 : S1000000x4.Slices ![0, 0] S1000000x1
  shapeCasts_S1000000x1_S1000000 : S1000000x1.ShapeCasts S1000000
  slices_S16000000x2_S16000000x1_0_0 : S16000000x2.Slices ![0, 0] S16000000x1
  shapeCasts_S16000000x1_S16000000 : S16000000x1.ShapeCasts S16000000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000 : S_.BroadcastsInDim S1000000 (![] : Fin 0 → Fin S1000000.rank)
  gather_S1000000_S16000000x1_S16000000_n_0_n_n_0_1_1_wf : GatherDims.WF S1000000 S16000000x1 S16000000 [] [0] [] [0] [] 1 ![1]
  scatter_S1000000_S16000000x1_S16000000_n_0_0_1_wf : ScatterDims.WF S1000000 S16000000x1 S16000000 [] [0] [0] 1

variable [Facts₀]

def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf

class Facts : Prop extends Facts₀ where

variable [Facts]
-- ==== Proof.Upwind.lean ====
/-
  The upwind difference quotient of one edge, and its pointwise application to arrays of any shape.

  For an edge with source value `s`, destination value `d` and signed spacing `e` the quotient is
  `(d - s) / e` when `s * e > 0` and `0` otherwise; on the lanes where the test fails the divisor is
  replaced by `1` before the division, so that no division by the masked spacing is ever formed.
  The function is stated once over scalars, generically in the float instance, and lifted to arrays
  index by index.  Since it acts on each index separately it commutes with every re-indexing of the
  arrays: a reshape of the three operands, the pointwise function, and the reshape back is the
  pointwise function on the original arrays.
-/
import Idealize.ShloMosaic.PureOps
import Idealize.ShloMosaic.Lib.Pipeline.Value

noncomputable section

namespace Cert.Upwind

open Idealize.ShloMosaic

variable {F : FTy → Type} [FloatOps F]

/-- One edge: `(d - s) / e` where `s * e > 0`, else `0`; the divisor is `1` where the test fails. -/
def quot (s d e : F .f32) : F .f32 :=
  Scalar.select (FloatOps.cmpf .ogt (FloatOps.mulf s e) (FloatOps.ofBits .f32 0x00000000#32))
    (FloatOps.divf (FloatOps.subf d s)
      (Scalar.select (FloatOps.cmpf .ogt (FloatOps.mulf s e) (FloatOps.ofBits .f32 0x00000000#32)) e
        (FloatOps.ofBits .f32 0x3F800000#32)))
    (FloatOps.ofBits .f32 0x00000000#32)

/-- The quotient of every edge of three arrays of one shape. -/
def edgewise {S : Shape} (a b e : S.Idx → F .f32) : S.Idx → F .f32 := fun i => quot (a i) (b i) (e i)

theorem edgewise_apply {S : Shape} (a b e : S.Idx → F .f32) (i : S.Idx) :
    edgewise a b e i = quot (a i) (b i) (e i) := rfl

/-- A reshape of the edgewise quotient is the edgewise quotient of the reshaped operands: both read
    the operands at the index with the same row-major position. -/
theorem edgewise_reshape {S T : Shape} (a b e : S.Idx → F .f32) (h : S.ShapeCasts T) :
    shapeCast T (edgewise a b e) h = edgewise (shapeCast T a h) (shapeCast T b h) (shapeCast T e h) := rfl

/-- Reshape the operands, take the edgewise quotient, reshape back: the edgewise quotient of the
    operands themselves. -/
theorem edgewise_roundtrip {S T : Shape} (a b e : S.Idx → F .f32) (h : S.ShapeCasts T) (h' : T.ShapeCasts S) :
    shapeCast S (edgewise (shapeCast T a h) (shapeCast T b h) (shapeCast T e h)) h' = edgewise a b e := by
  rw [edgewise_reshape, shapeCast_shapeCast, shapeCast_shapeCast, shapeCast_shapeCast]

/-- The quotient written with whole-array operations over splatted constants — a product, a
    comparison with zero, two selections, a difference and a division — is the edgewise quotient. -/
theorem vector_form {S : Shape} (a b e : S.Idx → F .f32) :
    select (cmpf .ogt (mulf a e) (broadcast S (Scalar.ofBits .f32 0x00000000#32)))
      (divf (subf b a)
        (select (cmpf .ogt (mulf a e) (broadcast S (Scalar.ofBits .f32 0x00000000#32))) e
          (broadcast S (Scalar.ofBits .f32 0x3F800000#32))))
      (broadcast S (Scalar.ofBits .f32 0x00000000#32))
    = edgewise a b e := rfl

end Cert.Upwind

end
-- ==== Proof.KernelArray.lean ====
/-
  What the idealized kernel's one region leaves in its output array.

  The region runs over 25 grid points; point `t` fetches rows `5000 t … 5000 t + 4999` of each of
  the three 125000 × 128 operand arrays (source values, destination values, spacings), applies the
  upwind quotient lane by lane, and writes the result back to the same rows of the output array.
  All four windows move together (block index `(t, 0)`), so what point `t` writes back is block `t`
  of ONE whole-array function — the edgewise quotient of the three operand arrays — and, the 25
  blocks tiling the 125000 rows, the output array ends holding that function.
-/
import proofs.«124863_j51273319580074_2_alg».proof.Proof.Gen.KernelIdeal.Frame
import proofs.«124863_j51273319580074_2_alg».proof.Proof.Upwind
import Idealize.ShloMosaic.Lib.Pipeline.Value

set_option maxRecDepth 16384

noncomputable section

namespace Cert.KernelIdeal.Edges

open Idealize.ShloMosaic Idealize.ShloMosaic.TcCoe
open Idealize.SL Idealize.SL.Sem
open Idealize.ShloMosaic.Pipeline (Dat Cfg Window)
open Cert.KernelIdeal Cert.KernelIdeal.Gen Cert.Upwind

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The edgewise quotient of three 125000 × 128 arrays. -/
abbrev quotients (a0 a1 a2 : S125000x128.Idx → Elt F .f32) : S125000x128.Idx → Elt F .f32 :=
  edgewise a0 a1 a2

/-- The body's one stored value is the edgewise quotient of its three loaded blocks: the three shape
    casts are to the blocks' own shape, and the rest is the quotient's whole-array spelling. -/
theorem payload_eq (x0 x1 x2 : Vec F S5000x128 .f32) : k0_pay1 x0 x1 x2 = edgewise x0 x1 x2 := by
  unfold k0_pay1
  simp only [shapeCast_self]
  rfl

/-- At grid point `t` every window's block index is `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the edgewise quotient of the operand arrays as the
    region finds them: each operand block is its array read at the rows the output block names. -/
theorem flushed_eq (c : Dev nD) (t : Fin cfg0.N) :
    (dats m 0 c).flushed 3 t
      = ((cfg0.win 3).blk t).view.read (Elt F) (quotients (V m c main_v22) (V m c main_v23) (V m c main_v24)) := by
  show (cfg0.win 3).cut (grid0.coords t) ((dats m 0 c).after 3 t) = _
  rw [after0_3]
  unfold out0_3
  rw [View.canon_unit_zero zero_offsets]
  simp only [View.ld_unit_zero (S := S5000x128) zero_offsets]
  rw [payload_eq]
  obtain ⟨e0, e1, e2, e3, e4, e5, e6, e7⟩ := block_index t
  funext j
  show quot (V m c main_v22 (((cfg0.win 0).blk t).view.emb j)) (V m c main_v23 (((cfg0.win 1).blk t).view.emb j))
      (V m c main_v24 (((cfg0.win 2).blk t).view.emb j))
    = quot (V m c main_v22 (((cfg0.win 3).blk t).view.emb j)) (V m c main_v23 (((cfg0.win 3).blk t).view.emb j))
      (V m c main_v24 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point `t`'s block iff each coordinate is in the block's range. -/
theorem mem_block (t : Fin cfg0.N) (i : S125000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v25).slice (win0_3.rect t)).set ↔ _
  rw [View.set_slice_whole, Rect.mem_set_unit]
  exact Iff.rfl

/-- Row `r` of the output array is written back by point `r / 5000`: the 25 blocks tile the array. -/
theorem covered (i : S125000x128.Idx) :
    ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5, e6, e7⟩ := block_index t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the edgewise quotient of the operand arrays. -/
theorem array_eq (c : Dev nD) :
    (dats m 0 c).arrAt 3 cfg0.N = quotients (V m c main_v22) (V m c main_v23) (V m c main_v24) :=
  (dats m 0 c).arrAt_eq_of_cover 3 _ (fun t _ => flushed_eq m c t) covered

end Cert.KernelIdeal.Edges

end
-- ==== Proof.KernelRun.lean ====
/-
  The idealized kernel's run, with its result named.

  Around its one region the program prepares the operands on the host and finishes on the host:
  before the region it takes column 0 of the node array (the node values) and column 0 of the edge
  attributes (the spacings), splits the edge list into its two rows (tails and heads), wraps negative
  node numbers by adding the node count, gathers the node values at the tails and at the heads, and
  lays the three edge arrays out as 125000 rows of 128 lanes; after the region it lays the region's
  output back out as one array of 16000000 edges and adds each edge's entry into the slot of its
  head, starting from zeros.

  The region's output is the edgewise upwind quotient of the re-laid operands, and re-laying a
  pointwise function's operands and then its result back changes nothing, so the summed updates are
  the edgewise quotient of the gathered arrays themselves.
-/
import proofs.«124863_j51273319580074_2_alg».proof.Proof.KernelArray
import Idealize.ShloMosaic.Lib.StableHlo.Run
set_option maxRecDepth 16384

noncomputable section

namespace Cert.KernelIdeal.Edges

open Idealize.ShloMosaic Idealize.ShloMosaic.TcCoe
open Idealize.SL Idealize.SL.Sem
open Idealize.ShloMosaic.Pipeline (Dat Cfg Window)
open Cert.KernelIdeal Cert.KernelIdeal.Gen Cert.Upwind

variable {F : FTy → Type} [FloatOps F]
variable (m : (ℓ : Loc nD τ sig) → Buf (Elt F) ℓ) (ρ : Dev nD → PrngReg)

/-- The node values: column 0 of the node array. -/
def nodeValues (x0 : (⟨S1000000x4, .f32⟩ : BufTy).Contents (Elt F)) : (⟨S1000000, .f32⟩ : BufTy).Contents (Elt F) :=
  shapeCast _ (extractStridedSlice S1000000x1 ![0, 0] x0 slices_S1000000x4_S1000000x1_0_0) shapeCasts_S1000000x1_S1000000

/-- The signed spacings: column 0 of the edge attributes. -/
def spacings (x2 : (⟨S16000000x2, .f32⟩ : BufTy).Contents (Elt F)) : (⟨S16000000, .f32⟩ : BufTy).Contents (Elt F) :=
  shapeCast _ (extractStridedSlice S16000000x1 ![0, 0] x2 slices_S16000000x2_S16000000x1_0_0) shapeCasts_S16000000x1_S16000000

/-- The edges' tails: row 0 of the edge list. -/
def tails (x1 : (⟨S2x16000000, .i32⟩ : BufTy).Contents (Elt F)) : (⟨S16000000, .i32⟩ : BufTy).Contents (Elt F) :=
  shapeCast _ (extractStridedSlice S1x16000000 ![0, 0] x1 slices_S2x16000000_S1x16000000_0_0) shapeCasts_S1x16000000_S16000000

/-- The edges' heads: row 1 of the edge list. -/
def heads (x1 : (⟨S2x16000000, .i32⟩ : BufTy).Contents (Elt F)) : (⟨S16000000, .i32⟩ : BufTy).Contents (Elt F) :=
  shapeCast _ (extractStridedSlice S1x16000000 ![1, 0] x1 slices_S2x16000000_S1x16000000_1_0) shapeCasts_S1x16000000_S16000000

/-- A node number below zero counts from the end: the node count is added to it. -/
def wrapped (idx : (⟨S16000000, .i32⟩ : BufTy).Contents (Elt F)) : (⟨S16000000, .i32⟩ : BufTy).Contents (Elt F) :=
  select (cmpi .slt idx (broadcastInDim S16000000 ![] bcast_S_S16000000 (constantI S_ 32 0#32)))
    (addi idx (broadcastInDim S16000000 ![] bcast_S_S16000000 (constantI S_ 32 1000000#32))) idx

/-- The node values gathered at one end of every edge. -/
def valuesAt (x0 : (⟨S1000000x4, .f32⟩ : BufTy).Contents (Elt F)) (idx : (⟨S16000000, .i32⟩ : BufTy).Contents (Elt F)) :
    (⟨S16000000, .f32⟩ : BufTy).Contents (Elt F) :=
  Host.gather gather_S1000000_S16000000x1_S16000000_n_0_n_n_0_1_1 (nodeValues (F := F) x0)
    (broadcastInDim S16000000x1 ![0] bcast_S16000000_S16000000x1_0 (wrapped (F := F) idx))

/-- Each edge's update added into the slot of its head, from zeros. -/
def summedAtHeads (x1 : (⟨S2x16000000, .i32⟩ : BufTy).Contents (Elt F)) (upd : (⟨S16000000, .f32⟩ : BufTy).Contents (Elt F)) :
    (⟨S1000000, .f32⟩ : BufTy).Contents (Elt F) :=
  Host.scatterAdd scatter_S1000000_S16000000x1_S16000000_n_0_0_1
    (broadcastInDim S1000000 ![] bcast_S_S1000000 (constant S_ .f32 0x00000000#32))
    (broadcastInDim S16000000x1 ![0] bcast_S16000000_S16000000x1_0 (heads (F := F) x1)) upd

/-- The program's result as one function of its three arguments: the upwind quotient of every edge,
    from the node values at its two ends and its spacing, summed at the edges' heads. -/
def nodeSums (x0 : (⟨S1000000x4, .f32⟩ : BufTy).Contents (Elt F)) (x1 : (⟨S2x16000000, .i32⟩ : BufTy).Contents (Elt F))
    (x2 : (⟨S16000000x2, .f32⟩ : BufTy).Contents (Elt F)) : (⟨S1000000, .f32⟩ : BufTy).Contents (Elt F) :=
  summedAtHeads (F := F) x1
    (edgewise (valuesAt (F := F) x0 (tails (F := F) x1)) (valuesAt (F := F) x0 (heads (F := F) x1)) (spacings (F := F) x2))

/-! ## The operand arrays as the region finds them -/

set_option maxHeartbeats 2000000 in
/-- The first operand: the node values at the edges' tails, as 125000 rows of 128 lanes. -/
theorem sources_eq (c : Dev nD) : (V m c main_v22 : S125000x128.Idx → Elt F .f32)
    = shapeCast S125000x128 (valuesAt (F := F) (m ((c.tc : Thread nD τ).loc main_arg0)) (tails (F := F) (m ((c.tc : Thread nD τ).loc main_arg1))))
        shapeCasts_S16000000_S125000x128 := by
  show StableHlo.after hostOps0 (fun b => m (c, b)) (Proc.devRef .tc main_v22) = _
  after_results
  rfl

set_option maxHeartbeats 2000000 in
/-- The second operand: the node values at the edges' heads, laid out the same way. -/
theorem destinations_eq (c : Dev nD) : (V m c main_v23 : S125000x128.Idx → Elt F .f32)
    = shapeCast S125000x128 (valuesAt (F := F) (m ((c.tc : Thread nD τ).loc main_arg0)) (heads (F := F) (m ((c.tc : Thread nD τ).loc main_arg1))))
        shapeCasts_S16000000_S125000x128 := by
  show StableHlo.after hostOps0 (fun b => m (c, b)) (Proc.devRef .tc main_v23) = _
  after_results
  rfl

set_option maxHeartbeats 2000000 in
/-- The third operand: the spacings, laid out the same way. -/
theorem spacings_eq (c : Dev nD) : (V m c main_v24 : S125000x128.Idx → Elt F .f32)
    = shapeCast S125000x128 (spacings (F := F) (m ((c.tc : Thread nD τ).loc main_arg2))) shapeCasts_S16000000_S125000x128 := by
  show StableHlo.after hostOps0 (fun b => m (c, b)) (Proc.devRef .tc main_v24) = _
  after_results
  rfl

/-- The heads, which the lines after the region read again, as the region's entry left them. -/
theorem heads_eq (c : Dev nD) : (V0 m c (Proc.devRef .tc main_v7) : S16000000.Idx → Elt F .i32)
    = heads (F := F) (m ((c.tc : Thread nD τ).loc main_arg1)) := by
  show StableHlo.after hostOps0 (fun b => m (c, b)) (Proc.devRef .tc main_v7) = _
  after_results
  rfl

/-! ## The lines after the region -/

/-- From any buffer contents, the lines after the region leave in the result buffer the region's
    output array, laid back out edge by edge, summed at the heads. -/
theorem after_tail (W : Valuation τ sig (Elt F)) :
    StableHlo.after hostOps1 W (Proc.devRef .tc main_v29)
      = Host.scatterAdd scatter_S1000000_S16000000x1_S16000000_n_0_0_1
          (broadcastInDim S1000000 ![] bcast_S_S1000000 (constant S_ .f32 0x00000000#32))
          (broadcastInDim S16000000x1 ![0] bcast_S16000000_S16000000x1_0 (W (Proc.devRef .tc main_v7) : S16000000.Idx → Elt F .i32))
          (shapeCast S16000000 (W (Proc.devRef .tc main_v25) : S125000x128.Idx → Elt F .f32) shapeCasts_S125000x128_S16000000) := by
  after_results
  rfl

/-- The result buffer after the whole program. -/
theorem result_eq (c : Dev nD) :
    Pipeline.afterTail₀ cfgs (dats m) 0 (V0 m) [hostOps1] c main_v29
      = nodeSums (F := F) (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v29) = _
  rw [after_tail]
  have h25 : (Pipeline.withArrays (cfgs 0).spec c (V0 m c) (fun w => (dats m 0 c).arrAt w (cfgs 0).N) (Proc.devRef .tc main_v25)
        : S125000x128.Idx → Elt F .f32)
      = quotients (V m c main_v22) (V m c main_v23) (V m c main_v24) :=
    (Pipeline.withArrays_arr spec0 launch0.win.arr_inj c _ _ 3).trans (array_eq m c)
  rw [h25, Pipeline.withArrays_of_ne _ c (V0 m c) _ main_v7 (by exact (by decide : ∀ w, Pipeline.arrRef spec0 w ≠ main_v7)),
    heads_eq, sources_eq, destinations_eq, spacings_eq]
  unfold nodeSums summedAtHeads
  exact congrArg (Host.scatterAdd scatter_S1000000_S16000000x1_S16000000_n_0_0_1 _ _) (edgewise_roundtrip _ _ _ _ _)

/-! ## The run -/

/-- Every weakly fair execution of the program terminates with its result buffer at `nodeSums` of
    the three argument arrays and the arguments unchanged. -/
theorem run : θ_run defs (onTc (τ := τ) (main (F := F))) ⟨m, fun _ => 0, ρ⟩ fun r => ∀ c : Dev nD,
      r.2.mem ((c.tc : Thread nD τ).loc main_v29)
        = nodeSums (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Edges

end
-- ==== Proof.Agreement.lean ====
/-
  The reference computes the same function of the three arguments.

  The reference prepares the same edge arrays in the same way — column 0 of the node array gathered
  at the wrapped tails and heads, column 0 of the edge attributes — and then forms the upwind quotient
  directly on the arrays of 16000000 edges: the product of source and spacing compared with zero, the
  spacing replaced by one where the test fails, the difference of the two ends divided by it, and
  zero where the test fails; finally it sums each edge's entry at the edge's head, from zeros.  On the
  extended reals the host's quotient is the same division as the kernel's, so edge by edge this is
  the upwind quotient, and the whole result is the kernel's function of the arguments.  No property
  of the inputs is used: the two sides are the same expression, read once through a re-laid array and
  once directly.
-/
import proofs.«124863_j51273319580074_2_alg».proof.Proof.KernelRun
import proofs.«124863_j51273319580074_2_alg».proof.Proof.Gen.ReferenceIdeal.Read
import Idealize.ShloMosaic.PureOps.Ideal

noncomputable section

namespace Cert.Agreement

open Idealize.ShloMosaic Idealize.ShloMosaic.TcCoe Idealize.SL.Sem
open Cert.Upwind Cert.ReferenceIdeal Cert.ReferenceIdeal.Read

/-- The reference's per-edge updates, on the extended reals, are the edgewise upwind quotient of its
    gathered source values, gathered destination values and spacings: the splatted constants read
    their value at every edge, and the host's quotient is the extended-real division. -/
theorem updates_eq (x0 : (⟨S1000000x4, .f32⟩ : BufTy).Contents (Elt Ideal)) (x1 : (⟨S2x16000000, .i32⟩ : BufTy).Contents (Elt Ideal))
    (x2 : (⟨S16000000x2, .f32⟩ : BufTy).Contents (Elt Ideal)) :
    val_main_v28 (F := Ideal) x0 x1 x2
      = edgewise (F := Ideal) (S := S16000000) (val_main_v14 (F := Ideal) x0 x1) (val_main_v21 (F := Ideal) x0 x1)
          (val_main_v3 (F := Ideal) x2) := by
  funext i
  rw [val_main_v28_apply, val_main_v27_apply, val_main_v26_apply, val_main_v25_apply, val_main_v24_apply,
    val_main_v22_apply, val_main_v23_apply, val_main_cst_apply, val_main_call0_v0_apply, val_main_cst_3_apply,
    val_main_call1_v0_apply, val_main_cst_4_apply]
  rfl

/-- The reference's result is the kernel's function of the three arguments. -/
theorem result_eq (x0 : (⟨S1000000x4, .f32⟩ : BufTy).Contents (Elt Ideal)) (x1 : (⟨S2x16000000, .i32⟩ : BufTy).Contents (Elt Ideal))
    (x2 : (⟨S16000000x2, .f32⟩ : BufTy).Contents (Elt Ideal)) :
    val_main_v31 (F := Ideal) x0 x1 x2 = Cert.KernelIdeal.Edges.nodeSums (F := Ideal) x0 x1 x2 := by
  unfold val_main_v31
  rw [updates_eq]
  rfl

end Cert.Agreement

end
-- ==== Proof.lean ====
/-
  The certificate of the upwind spatial-derivative operator on a graph: for every edge, from the
  values `s`, `d` of column 0 of the node array at the edge's tail and head and the edge's signed
  spacing `e` (column 0 of the edge attributes), the quotient `(d - s) / e` where `s * e > 0` and `0`
  elsewhere, summed over the edges into the slot of each edge's head.

  The kernel gathers the node values on the host, lays the three edge arrays out as 125000 rows of
  128 lanes, forms the quotient in one region of 25 grid points (5000 rows each), lays the result back
  out and sums it at the heads on the host.  The reference forms the same quotient directly on the
  arrays of 16000000 edges.  The quotient acts on each edge by itself, so re-laying its operands and
  its result changes nothing (Proof/Upwind.lean); the region's output array is that pointwise function
  of its operand arrays because its 25 blocks tile the array and all windows move together
  (Proof/KernelArray.lean); the host lines before and after the region are read back
  (Proof/KernelRun.lean); and the reference's updates are the same quotient, the host's division and
  the kernel's being one division on the extended reals (Proof/Agreement.lean).  The two results are
  therefore equal for all inputs, finite or not; the precondition is not used.

  The three frames are the generated ones (the reference's is its generated run with the result
  dropped), and the idealization rewrote no operation, so there is nothing to preserve.
-/
import proofs.«124863_j51273319580074_2_alg».proof.Defs
import proofs.«124863_j51273319580074_2_alg».proof.Proof.Gen.Kernel
import proofs.«124863_j51273319580074_2_alg».proof.Proof.Gen.Kernel.Skeleton
import proofs.«124863_j51273319580074_2_alg».proof.Proof.Gen.Kernel.Launch
import proofs.«124863_j51273319580074_2_alg».proof.Proof.Gen.Kernel.Points
import proofs.«124863_j51273319580074_2_alg».proof.Proof.Gen.Kernel.Frame
import proofs.«124863_j51273319580074_2_alg».proof.Proof.Gen.KernelIdeal
import proofs.«124863_j51273319580074_2_alg».proof.Proof.Gen.KernelIdeal.Skeleton
import proofs.«124863_j51273319580074_2_alg».proof.Proof.Gen.KernelIdeal.Launch
import proofs.«124863_j51273319580074_2_alg».proof.Proof.Gen.KernelIdeal.Points
import proofs.«124863_j51273319580074_2_alg».proof.Proof.Gen.KernelIdeal.Frame
import proofs.«124863_j51273319580074_2_alg».proof.Proof.Gen.ReferenceIdeal
import proofs.«124863_j51273319580074_2_alg».proof.Proof.Gen.ReferenceIdeal.Run
import proofs.«124863_j51273319580074_2_alg».proof.Proof.Gen.ReferenceIdeal.Read
import proofs.«124863_j51273319580074_2_alg».proof.Proof.Gen.Pre_finite_inputs
import proofs.«124863_j51273319580074_2_alg».proof.Proof.Upwind
import proofs.«124863_j51273319580074_2_alg».proof.Proof.KernelArray
import proofs.«124863_j51273319580074_2_alg».proof.Proof.KernelRun
import proofs.«124863_j51273319580074_2_alg».proof.Proof.Agreement
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the node sums of the upwind quotients of the edges:
    the kernel by its run, the reference by its run and the agreement of its term with that function
    of arguments that agree. -/
theorem algebraic : Cert.algebraic_KernelIdeal_ReferenceIdeal := by
  intro m ρ m' ρ' _ hagree
  refine ⟨_, Cert.KernelIdeal.Edges.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Agreement.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
